-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x80 : Shape := ⟨2, ![100000, 80]⟩
abbrev S1000000 : Shape := ⟨1, ![1000000]⟩
abbrev S80x40 : Shape := ⟨2, ![80, 40]⟩
abbrev S_ : Shape := ⟨0, ![]⟩

class Facts : Prop where
  bcast_S_S100000x80 : S_.BroadcastsInDim S100000x80 (![] : Fin 0 → Fin S100000x80.rank)
  reducesTo_S100000x80_S_d0_1 : S100000x80.ReducesTo [0, 1] S_
  h_S_ : 0 < S_.numel
  bcast_S_S80x40 : S_.BroadcastsInDim S80x40 (![] : Fin 0 → Fin S80x40.rank)
  reducesTo_S80x40_S_d0_1 : S80x40.ReducesTo [0, 1] S_

variable [Facts]

def fn {F : FTy → Type} [FloatOps F] (main_arg0 : FVec F S100000x80 .f32) (main_arg1 : IVec S1000000 32) (main_arg2 : IVec S1000000 32) (main_arg3 : FVec F S80x40 .f32) : IVec S_ 1 :=
  let main_v0 : FVec F S100000x80 .f32 := Host.absf main_arg0
  let main_cst : FVec F S_ .f32 := constant S_ .f32 0x7F800000#32
  let main_v1 : FVec F S100000x80 .f32 := broadcastInDim S100000x80 ![] bcast_S_S100000x80 main_cst
  let main_v2 : IVec S100000x80 1 := cmpf .olt main_v0 main_v1
  let main_c : IVec S_ 1 := constantI S_ 1 1#1
  let main_v3 : IVec S_ 1 := (fun x v => Host.reduce IntOp.andi x v reducesTo_S100000x80_S_d0_1 h_S_) main_v2 main_c
  let main_v4 : FVec F S80x40 .f32 := Host.absf main_arg3
  let main_cst_0 : FVec F S_ .f32 := constant S_ .f32 0x7F800000#32
  let main_v5 : FVec F S80x40 .f32 := broadcastInDim S80x40 ![] bcast_S_S80x40 main_cst_0
  let main_v6 : IVec S80x40 1 := cmpf .olt main_v4 main_v5
  let main_c_1 : IVec S_ 1 := constantI S_ 1 1#1
  let main_v7 : IVec S_ 1 := (fun x v => Host.reduce IntOp.andi x v reducesTo_S80x40_S_d0_1 h_S_) main_v6 main_c_1
  let main_v8 : IVec S_ 1 := andi main_v3 main_v7
  main_v8
-- ==== Kernel.lean ====
abbrev S100000x80 : Shape := ⟨2, ![100000, 80]⟩
abbrev S1000000 : Shape := ⟨1, ![1000000]⟩
abbrev S80x40 : Shape := ⟨2, ![80, 40]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S10000x80 : Shape := ⟨2, ![10000, 80]⟩
abbrev S10000x1 : Shape := ⟨2, ![10000, 1]⟩
abbrev S1100000x80 : Shape := ⟨2, ![1100000, 80]⟩
abbrev S100000x40 : Shape := ⟨2, ![100000, 40]⟩
abbrev S10000x40 : Shape := ⟨2, ![10000, 40]⟩

abbrev nBuf : Space → Nat
  | .hbm => 57
  | .vmem => 19
  | .smem => 0
  | _ => 0

abbrev bufTy : (tb : Table) → Fin (tcTables nBuf tb) → BufTy
  | .hbm, ⟨0, _⟩ => ⟨S100000x80, .f32⟩
  | .hbm, ⟨1, _⟩ => ⟨S1000000, .i32⟩
  | .hbm, ⟨2, _⟩ => ⟨S1000000, .i32⟩
  | .hbm, ⟨3, _⟩ => ⟨S80x40, .f32⟩
  | .hbm, ⟨4, _⟩ => ⟨S100000, .i32⟩
  | .hbm, ⟨5, _⟩ => ⟨S1100000, .i32⟩
  | .hbm, ⟨6, _⟩ => ⟨S1100000, .i32⟩
  | .hbm, ⟨7, _⟩ => ⟨S_, .f32⟩
  | .hbm, ⟨8, _⟩ => ⟨S1100000, .f32⟩
  | .hbm, ⟨9, _⟩ => ⟨S_, .f32⟩
  | .hbm, ⟨10, _⟩ => ⟨S100000, .f32⟩
  | .hbm, ⟨11, _⟩ => ⟨S1100000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S100000x80, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000x80, .f32⟩
  | .hbm, ⟨38, _⟩ => ⟨S_, .f32⟩
  | .hbm, ⟨39, _⟩ => ⟨S100000x80, .f32⟩
  | .hbm, ⟨40, _⟩ => ⟨S1100000x1, .i32⟩
  | .hbm, ⟨41, _⟩ => ⟨S100000x80, .f32⟩
  | .hbm, ⟨42, _⟩ => ⟨S100000x80, .f32⟩
  | .hbm, ⟨43, _⟩ => ⟨S_, .i32⟩
  | .hbm, ⟨44, _⟩ => ⟨S1100000, .i32⟩
  | .hbm, ⟨45, _⟩ => ⟨S1100000, .i1⟩
  | .hbm, ⟨46, _⟩ => ⟨S_, .i32⟩
  | .hbm, ⟨47, _⟩ => ⟨S1100000, .i32⟩
  | .hbm, ⟨48, _⟩ => ⟨S1100000, .i32⟩
  | .hbm, ⟨49, _⟩ => ⟨S1100000, .i32⟩
  | .hbm, ⟨50, _⟩ => ⟨S1100000x1, .i32⟩
  | .hbm, ⟨51, _⟩ => ⟨S1100000x80, .f32⟩
  | .hbm, ⟨52, _⟩ => ⟨S_, .f32⟩
  | .hbm, ⟨53, _⟩ => ⟨S100000x80, .f32⟩
  | .hbm, ⟨54, _⟩ => ⟨S1100000x1, .i32⟩
  | .hbm, ⟨55, _⟩ => ⟨S100000x80, .f32⟩
  | .hbm, ⟨56, _⟩ => ⟨S100000x40, .f32⟩
  | .local _ .vmem, ⟨0, _⟩ => ⟨S10000x80, .f32⟩
  | .local _ .vmem, ⟨1, _⟩ => ⟨S10000x80, .f32⟩
  | .local _ .vmem, ⟨2, _⟩ => ⟨S10000x1, .f32⟩
  | .local _ .vmem, ⟨3, _⟩ => ⟨S10000x1, .f32⟩
  | .local _ .vmem, ⟨4, _⟩ => ⟨S10000x80, .f32⟩
  | .local _ .vmem, ⟨5, _⟩ => ⟨S10000x80, .f32⟩
  | .local _ .vmem, ⟨6, _⟩ => ⟨S10000x80, .f32⟩
  | .local _ .vmem, ⟨7, _⟩ => ⟨S10000x80, .f32⟩
  | .local _ .vmem, ⟨8, _⟩ => ⟨S10000x1, .f32⟩
  | .local _ .vmem, ⟨9, _⟩ => ⟨S10000x1, .f32⟩
  | .local _ .vmem, ⟨10, _⟩ => ⟨S10000x80, .f32⟩
  | .local _ .vmem, ⟨11, _⟩ => ⟨S10000x80, .f32⟩
  | .local _ .vmem, ⟨12, _⟩ => ⟨S10000x80, .f32⟩
  | .local _ .vmem, ⟨13, _⟩ => ⟨S10000x80, .f32⟩
  | .local _ .vmem, ⟨14, _⟩ => ⟨S10000x1, .f32⟩
  | .local _ .vmem, ⟨15, _⟩ => ⟨S10000x1, .f32⟩
  | .local _ .vmem, ⟨16, _⟩ => ⟨S80x40, .f32⟩
  | .local _ .vmem, ⟨17, _⟩ => ⟨S10000x40, .f32⟩
  | .local _ .vmem, ⟨18, _⟩ => ⟨S10000x40, .f32⟩
  | _, _ => ⟨S100000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S80x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S10000x80_S10000x80_0_0 : ∀ a, (![0, 0] : Fin 2 → Nat) a + S10000x80.size a ≤ S10000x80.size a
  h_S10000x80 : 0 < S10000x80.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x80 : S10000x1.Broadcasts S10000x80
  bcast_S_S100000x80 : S_.BroadcastsInDim S100000x80 (![] : Fin 0 → Fin S100000x80.rank)
  shapeCasts_S10000x80_S10000x80 : S10000x80.ShapeCasts S10000x80
  bitsLt_bf16_f32 : FTy.bits .bf16 < FTy.bits .f32
  inb_S80x40_S80x40_0_0 : ∀ a, (![0, 0] : Fin 2 → Nat) a + S80x40.size a ≤ S80x40.size a
  h_S80x40 : 0 < S80x40.numel
  inb_S10000x40_S10000x40_0_0 : ∀ a, (![0, 0] : Fin 2 → Nat) a + S10000x40.size a ≤ S10000x40.size a
  h_S10000x40 : 0 < S10000x40.numel
  scatter_S100000_S1100000x1_S1100000_n_0_0_1_wf : ScatterDims.WF S100000 S1100000x1 S1100000 [] [0] [0] 1
  gather_S100000x80_S1100000x1_S1100000x80_1_0_n_n_0_1_180_wf : GatherDims.WF S100000x80 S1100000x1 S1100000x80 [1] [0] [] [0] [] 1 ![1, 80]
  scatter_S100000x80_S1100000x1_S1100000x80_1_0_0_1_wf : ScatterDims.WF S100000x80 S1100000x1 S1100000x80 [1] [0] [0] 1
  dot_S10000x80_S80x40_S10000x40_1_0_0_1_n_n_wf : DotDims.WF S10000x80 S80x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x80.size a ≤ S100000x80.size a
  hwx0_0 : ∀ i : grid0.Coords, EltTy.bits .f32 = 32 ∨ (Rect.block (s := S100000x80) S10000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x80.size a ≤ S100000x80.size a
  hwx0_2 : ∀ i : grid0.Coords, EltTy.bits .f32 = 32 ∨ (Rect.block (s := S100000x80) S10000x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x80.size a ≤ S100000x80.size a
  hwx1_0 : ∀ i : grid1.Coords, EltTy.bits .f32 = 32 ∨ (Rect.block (s := S100000x80) S10000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x80.size a ≤ S100000x80.size a
  hwx1_2 : ∀ i : grid1.Coords, EltTy.bits .f32 = 32 ∨ (Rect.block (s := S100000x80) S10000x80.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x80.size a ≤ S100000x80.size a
  hwx2_0 : ∀ i : grid2.Coords, EltTy.bits .f32 = 32 ∨ (Rect.block (s := S100000x80) S10000x80.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S80x40.size a ≤ S80x40.size a
  hwx2_2 : ∀ i : grid2.Coords, EltTy.bits .f32 = 32 ∨ (Rect.block (s := S80x40) S80x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x80_S1100000x1_S1100000x80_1_0_n_n_0_1_180 : GatherDims S100000x80 S1100000x1 S1100000x80 where
  offsetDims := [1]
  collapsedSliceDims := [0]
  operandBatchingDims := []
  startIndicesBatchingDims := []
  startIndexMap := [0]
  indexVectorDim := 1
  sliceSizes := ![1, 80]
  wf := gather_S100000x80_S1100000x1_S1100000x80_1_0_n_n_0_1_180_wf
def scatter_S100000x80_S1100000x1_S1100000x80_1_0_0_1 : ScatterDims S100000x80 S1100000x1 S1100000x80 where
  updateWindowDims := [1]
  insertedWindowDims := [0]
  scatterDimsToOperandDims := [0]
  indexVectorDim := 1
  wf := scatter_S100000x80_S1100000x1_S1100000x80_1_0_0_1_wf
def dot_S10000x80_S80x40_S10000x40_1_0_0_1_n_n : DotDims S10000x80 S80x40 S10000x40 where
  lhsContracting := [1]
  rhsContracting := [0]
  lhsNonContracting := [0]
  rhsNonContracting := [1]
  lhsBatch := []
  rhsBatch := []
  wf := dot_S10000x80_S80x40_S10000x40_1_0_0_1_n_n_wf

abbrev win0_0 : Pipeline.Window sig grid0 :=
  Pipeline.Window.ofSpec (Memref.whole main_arg0) S10000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10000x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S10000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S80x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x80 : Shape := ⟨2, ![100000, 80]⟩
abbrev S1000000 : Shape := ⟨1, ![1000000]⟩
abbrev S80x40 : Shape := ⟨2, ![80, 40]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S1100000x80 : Shape := ⟨2, ![1100000, 80]⟩
abbrev S100000x40 : Shape := ⟨2, ![100000, 40]⟩

abbrev nBuf : Space → Nat
  | .hbm => 85
  | .vmem => 0
  | .smem => 0
  | _ => 0

abbrev bufTy : (tb : Table) → Fin (tcTables nBuf tb) → BufTy
  | .hbm, ⟨0, _⟩ => ⟨S100000x80, .f32⟩
  | .hbm, ⟨1, _⟩ => ⟨S1000000, .i32⟩
  | .hbm, ⟨2, _⟩ => ⟨S1000000, .i32⟩
  | .hbm, ⟨3, _⟩ => ⟨S80x40, .f32⟩
  | .hbm, ⟨4, _⟩ => ⟨S100000, .i32⟩
  | .hbm, ⟨5, _⟩ => ⟨S1100000, .i32⟩
  | .hbm, ⟨6, _⟩ => ⟨S1100000, .i32⟩
  | .hbm, ⟨7, _⟩ => ⟨S_, .f32⟩
  | .hbm, ⟨8, _⟩ => ⟨S1100000, .f32⟩
  | .hbm, ⟨9, _⟩ => ⟨S_, .f32⟩
  | .hbm, ⟨10, _⟩ => ⟨S100000, .f32⟩
  | .hbm, ⟨11, _⟩ => ⟨S1100000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x80, .f32⟩
  | .hbm, ⟨23, _⟩ => ⟨S100000x80, .f32⟩
  | .hbm, ⟨24, _⟩ => ⟨S_, .i32⟩
  | .hbm, ⟨25, _⟩ => ⟨S1100000, .i32⟩
  | .hbm, ⟨26, _⟩ => ⟨S1100000, .i1⟩
  | .hbm, ⟨27, _⟩ => ⟨S_, .i32⟩
  | .hbm, ⟨28, _⟩ => ⟨S1100000, .i32⟩
  | .hbm, ⟨29, _⟩ => ⟨S1100000, .i32⟩
  | .hbm, ⟨30, _⟩ => ⟨S1100000, .i32⟩
  | .hbm, ⟨31, _⟩ => ⟨S1100000x1, .i32⟩
  | .hbm, ⟨32, _⟩ => ⟨S1100000x80, .f32⟩
  | .hbm, ⟨33, _⟩ => ⟨S_, .f32⟩
  | .hbm, ⟨34, _⟩ => ⟨S100000x80, .f32⟩
  | .hbm, ⟨35, _⟩ => ⟨S1100000x1, .i32⟩
  | .hbm, ⟨36, _⟩ => ⟨S100000x80, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x80, .f32⟩
  | .hbm, ⟨43, _⟩ => ⟨S100000x80, .f32⟩
  | .hbm, ⟨44, _⟩ => ⟨S100000, .i32⟩
  | .hbm, ⟨45, _⟩ => ⟨S1100000, .i32⟩
  | .hbm, ⟨46, _⟩ => ⟨S1100000, .i32⟩
  | .hbm, ⟨47, _⟩ => ⟨S_, .f32⟩
  | .hbm, ⟨48, _⟩ => ⟨S1100000, .f32⟩
  | .hbm, ⟨49, _⟩ => ⟨S_, .f32⟩
  | .hbm, ⟨50, _⟩ => ⟨S100000, .f32⟩
  | .hbm, ⟨51, _⟩ => ⟨S1100000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S1100000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x80, .f32⟩
  | .hbm, ⟨63, _⟩ => ⟨S100000x80, .f32⟩
  | .hbm, ⟨64, _⟩ => ⟨S_, .i32⟩
  | .hbm, ⟨65, _⟩ => ⟨S1100000, .i32⟩
  | .hbm, ⟨66, _⟩ => ⟨S1100000, .i1⟩
  | .hbm, ⟨67, _⟩ => ⟨S_, .i32⟩
  | .hbm, ⟨68, _⟩ => ⟨S1100000, .i32⟩
  | .hbm, ⟨69, _⟩ => ⟨S1100000, .i32⟩
  | .hbm, ⟨70, _⟩ => ⟨S1100000, .i32⟩
  | .hbm, ⟨71, _⟩ => ⟨S1100000x1, .i32⟩
  | .hbm, ⟨72, _⟩ => ⟨S1100000x80, .f32⟩
  | .hbm, ⟨73, _⟩ => ⟨S_, .f32⟩
  | .hbm, ⟨74, _⟩ => ⟨S100000x80, .f32⟩
  | .hbm, ⟨75, _⟩ => ⟨S1100000x1, .i32⟩
  | .hbm, ⟨76, _⟩ => ⟨S100000x80, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x80, .f32⟩
  | .hbm, ⟨83, _⟩ => ⟨S100000x80, .f32⟩
  | .hbm, ⟨84, _⟩ => ⟨S100000x40, .f32⟩
  | _, _ => ⟨S100000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  bcast_S100000x1_S100000x80_0_1 : S100000x1.BroadcastsInDim S100000x80 (![0, 1] : Fin 2 → Fin S100000x80.rank)
  bcast_S_S100000x80 : S_.BroadcastsInDim S100000x80 (![] : Fin 0 → Fin S100000x80.rank)
  scatter_S100000_S1100000x1_S1100000_n_0_0_1_wf : ScatterDims.WF S100000 S1100000x1 S1100000 [] [0] [0] 1
  gather_S100000x80_S1100000x1_S1100000x80_1_0_n_n_0_1_180_wf : GatherDims.WF S100000x80 S1100000x1 S1100000x80 [1] [0] [] [0] [] 1 ![1, 80]
  scatter_S100000x80_S1100000x1_S1100000x80_1_0_0_1_wf : ScatterDims.WF S100000x80 S1100000x1 S1100000x80 [1] [0] [0] 1
  dot_S100000x80_S80x40_S100000x40_1_0_0_1_n_n_wf : DotDims.WF S100000x80 S80x40 S100000x40 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x80_S1100000x1_S1100000x80_1_0_n_n_0_1_180 : GatherDims S100000x80 S1100000x1 S1100000x80 where
  offsetDims := [1]
  collapsedSliceDims := [0]
  operandBatchingDims := []
  startIndicesBatchingDims := []
  startIndexMap := [0]
  indexVectorDim := 1
  sliceSizes := ![1, 80]
  wf := gather_S100000x80_S1100000x1_S1100000x80_1_0_n_n_0_1_180_wf
def scatter_S100000x80_S1100000x1_S1100000x80_1_0_0_1 : ScatterDims S100000x80 S1100000x1 S1100000x80 where
  updateWindowDims := [1]
  insertedWindowDims := [0]
  scatterDimsToOperandDims := [0]
  indexVectorDim := 1
  wf := scatter_S100000x80_S1100000x1_S1100000x80_1_0_0_1_wf
def dot_S100000x80_S80x40_S100000x40_1_0_0_1_n_n : DotDims S100000x80 S80x40 S100000x40 where
  lhsContracting := [1]
  rhsContracting := [0]
  lhsNonContracting := [0]
  rhsNonContracting := [1]
  lhsBatch := []
  rhsBatch := []
  wf := dot_S100000x80_S80x40_S100000x40_1_0_0_1_n_n_wf

class Facts : Prop extends Facts₀ where

variable [Facts]
-- ==== Proof.KernelRun.lean ====
/-
  The idealized kernel program's run with its result named. Every weakly fair execution of the program
  terminates without a fault, and in every final state the result array holds what the last kernel's
  write-backs leave in it (the value `W6 … main_v41` of the fold through the program's three host stretches and
  three kernels), the four argument arrays unchanged. The fold's value is computed, array by array, in the
  modules that follow.
-/
import proofs.«180224_j17394617548983_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the fold's value, the arguments as launched. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Hand

end
-- ==== Proof.Rows.lean ====
/-
  Scaling the rows of a node-feature array by a per-node column. The first two kernels of the program each
  multiply row `r` of a [100000, 80] array by entry `(r, 0)` of a [100000, 1] column, ten thousand rows at a
  grid point. Here: the function itself over whole arrays (`scaleRows`), the same thing inside one block
  (a [10000, 1] column broadcast along the 80 features), and the position of a block's entry in the array
  (row = block number × 10000 + row inside the block).
-/
import proofs.«180224_j17394617548983_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- The column entry that scales row `i 0`: position `(i 0, 0)`. -/
abbrev col (i : S100000x80.Idx) : S100000x1.Idx := fun a => match a with
  | ⟨0, _⟩ => ⟨(i 0).val, (i 0).isLt⟩
  | ⟨1, _⟩ => ⟨0, Nat.one_pos⟩

/-- Every row of `x` multiplied by that row's entry of the column `s`. -/
def scaleRows (x : S100000x80.Idx → Elt F .f32) (s : S100000x1.Idx → Elt F .f32) : S100000x80.Idx → Elt F .f32 :=
  fun i => FloatOps.mulf (x i) (s (col i))

/-- Inside a block: the column entry of the block's row `j 0`. -/
abbrev bcol (j : S10000x80.Idx) : S10000x1.Idx := fun a => match a with
  | ⟨0, _⟩ => ⟨(j 0).val, (j 0).isLt⟩
  | ⟨1, _⟩ => ⟨0, Nat.one_pos⟩

/-- A [10000, 1] column broadcast to [10000, 80] reads, at `(r, f)`, the column's entry `(r, 0)`. -/
theorem bcast_col {α : Type} (x1 : S10000x1.Idx → α) (j : S10000x80.Idx) :
    broadcastTo S10000x80 x1 broadcasts_S10000x1_S10000x80 j = x1 (bcol j) :=
  broadcastTo_apply x1 broadcasts_S10000x1_S10000x80 j (bcol j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

end Cert.KernelIdeal.Hand

end
-- ==== Proof.Region0.lean ====
/-
  The first row-scaling kernel, read as a whole-array function. At grid point `t` the body multiplies rows
  `10000·t … 10000·t + 9999` of the feature array by the matching entries of the column and stores the
  product as block `t` of the output; the ten blocks tile the output. So the output array ends holding
  `scaleRows` of the two arrays the kernel was entered with — whatever those arrays are (`V`).
-/
import proofs.«180224_j17394617548983_2_alg».proof.Proof.Rows

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- The body's arithmetic at one entry of the block: feature times the row's column entry. -/
theorem pay0_apply (x0 : Vec F S10000x80 .f32) (x1 : Vec F S10000x1 .f32) (j : S10000x80.Idx) :
    k0_pay1 x0 x1 j = FloatOps.mulf (x0 j) (x1 (bcol j)) := by
  unfold k0_pay1
  show FloatOps.mulf (x0 j) (broadcastTo S10000x80 (shapeCast S10000x1 x1 shapeCasts_S10000x1_S10000x1) broadcasts_S10000x1_S10000x80 j) = _
  rw [shapeCast_self, bcast_col]

/-- At point `t` all three windows sit at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled array. -/
theorem flushed0 (c : Dev nD) (t : Fin cfg0.N) :
    (dat0 V c).flushed 2 t = ((cfg0.win 2).blk t).view.read (Elt F) (scaleRows (V c main_arg0) (V c main_v13)) := by
  show (cfg0.win 2).cut (grid0.coords t) ((dat0 V c).after 2 t) = _
  rw [after0_2]
  unfold out0_2
  rw [View.canon_unit_zero hz]
  simp only [View.ld_unit_zero (S := S10000x80) hz, View.ld_unit_zero (S := S10000x1) hz]
  obtain ⟨e0, e1, e2, e3, e4, e5⟩ := idx_facts0 t
  funext j
  refine (pay0_apply (iblk0 V c 0 t) (iblk0 V c 1 t) j).trans ?_
  show FloatOps.mulf (V c main_arg0 (((cfg0.win 0).blk t).view.emb j)) (V c main_v13 (((cfg0.win 1).blk t).view.emb (bcol j)))
    = FloatOps.mulf (V c main_arg0 (((cfg0.win 2).blk t).view.emb j)) (V c main_v13 (col (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 80 + 1 * (j 1).val = win0_2.index t (1 : Fin 2) * 80 + 1 * (j 1).val; omega
  have h1 : ((cfg0.win 1).blk t).view.emb (bcol j) = col (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An index of the output array lies in point `t`'s block iff each coordinate lies in the block's range. -/
theorem mem_blk0 (t : Fin cfg0.N) (i : S100000x80.Idx) :
    i ∈ ((cfg0.win 2).blk t).view.set ↔ ∀ a : Fin 2, win0_2.index t a * S10000x80.size a ≤ (i a).val ∧ (i a).val < win0_2.index t a * S10000x80.size a + S10000x80.size a := by
  show i ∈ ((View.whole main_v19).slice (win0_2.rect t)).set ↔ _
  rw [View.set_slice_whole, Rect.mem_set_unit]
  exact Iff.rfl

/-- The output array after the ten points: every row scaled. Row `r` is written by point `r / 10000`. -/
theorem final0 (c : Dev nD) : (dat0 V c).arrAt 2 cfg0.N = scaleRows (V c main_arg0) (V c main_v13) :=
  (dat0 V c).arrAt_eq_of_cover 2 _ (fun t _ => flushed0 V c t) fun i => by
    have hN : cfg0.N = 10 := N_0
    have hi0 : (i 0).val < 100000 := (i 0).isLt
    have hi1 : (i 1).val < 80 := (i 1).isLt
    obtain ⟨t, ht⟩ : ∃ t : Fin cfg0.N, t.val = (i 0).val / 10000 := ⟨⟨(i 0).val / 10000, by rw [hN]; omega⟩, rfl⟩
    obtain ⟨-, -, -, -, e4, e5⟩ := idx_facts0 t
    refine ⟨t, flush0_2 t, ?_⟩
    rw [mem_blk0]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 80 ≤ (i 1).val ∧ (i 1).val < win0_2.index t (1 : Fin 2) * 80 + 80; omega

end Cert.KernelIdeal.Hand

end
-- ==== Proof.Region1.lean ====
/-
  The second row-scaling kernel, read as a whole-array function (the same body as the first, on other arrays). At grid point `t` the body multiplies rows
  `10000·t … 10000·t + 9999` of the feature array by the matching entries of the column and stores the
  product as block `t` of the output; the ten blocks tile the output. So the output array ends holding
  `scaleRows` of the two arrays the kernel was entered with — whatever those arrays are (`V`).
-/
import proofs.«180224_j17394617548983_2_alg».proof.Proof.Rows

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- The body's arithmetic at one entry of the block: feature times the row's column entry. -/
theorem pay1_apply (x0 : Vec F S10000x80 .f32) (x1 : Vec F S10000x1 .f32) (j : S10000x80.Idx) :
    k1_pay1 x0 x1 j = FloatOps.mulf (x0 j) (x1 (bcol j)) := by
  unfold k1_pay1
  show FloatOps.mulf (shapeCast S10000x80 x0 shapeCasts_S10000x80_S10000x80 j) (broadcastTo S10000x80 (shapeCast S10000x1 x1 shapeCasts_S10000x1_S10000x1) broadcasts_S10000x1_S10000x80 j) = _
  rw [shapeCast_self, shapeCast_self, bcast_col]

/-- At point `t` all three windows sit at block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array. -/
theorem flushed1 (c : Dev nD) (t : Fin cfg1.N) :
    (dat1 V c).flushed 2 t = ((cfg1.win 2).blk t).view.read (Elt F) (scaleRows (V c main_v29) (V c main_v18)) := by
  show (cfg1.win 2).cut (grid1.coords t) ((dat1 V c).after 2 t) = _
  rw [after1_2]
  unfold out1_2
  rw [View.canon_unit_zero hz]
  simp only [View.ld_unit_zero (S := S10000x80) hz, View.ld_unit_zero (S := S10000x1) hz]
  obtain ⟨e0, e1, e2, e3, e4, e5⟩ := idx_facts1 t
  funext j
  refine (pay1_apply (iblk1 V c 0 t) (iblk1 V c 1 t) j).trans ?_
  show FloatOps.mulf (V c main_v29 (((cfg1.win 0).blk t).view.emb j)) (V c main_v18 (((cfg1.win 1).blk t).view.emb (bcol j)))
    = FloatOps.mulf (V c main_v29 (((cfg1.win 2).blk t).view.emb j)) (V c main_v18 (col (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 80 + 1 * (j 1).val = win1_2.index t (1 : Fin 2) * 80 + 1 * (j 1).val; omega
  have h1 : ((cfg1.win 1).blk t).view.emb (bcol j) = col (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the output array lies in point `t`'s block iff each coordinate lies in the block's range. -/
theorem mem_blk1 (t : Fin cfg1.N) (i : S100000x80.Idx) :
    i ∈ ((cfg1.win 2).blk t).view.set ↔ ∀ a : Fin 2, win1_2.index t a * S10000x80.size a ≤ (i a).val ∧ (i a).val < win1_2.index t a * S10000x80.size a + S10000x80.size a := by
  show i ∈ ((View.whole main_v30).slice (win1_2.rect t)).set ↔ _
  rw [View.set_slice_whole, Rect.mem_set_unit]
  exact Iff.rfl

/-- The output array after the ten points: every row scaled. Row `r` is written by point `r / 10000`. -/
theorem final1 (c : Dev nD) : (dat1 V c).arrAt 2 cfg1.N = scaleRows (V c main_v29) (V c main_v18) :=
  (dat1 V c).arrAt_eq_of_cover 2 _ (fun t _ => flushed1 V c t) fun i => by
    have hN : cfg1.N = 10 := N_1
    have hi0 : (i 0).val < 100000 := (i 0).isLt
    have hi1 : (i 1).val < 80 := (i 1).isLt
    obtain ⟨t, ht⟩ : ∃ t : Fin cfg1.N, t.val = (i 0).val / 10000 := ⟨⟨(i 0).val / 10000, by rw [hN]; omega⟩, rfl⟩
    obtain ⟨-, -, -, -, e4, e5⟩ := idx_facts1 t
    refine ⟨t, flush1_2 t, ?_⟩
    rw [mem_blk1]
    intro a
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 80 ≤ (i 1).val ∧ (i 1).val < win1_2.index t (1 : Fin 2) * 80 + 80; omega

end Cert.KernelIdeal.Hand

end
-- ==== Proof.Region2.lean ====
/-
  The last kernel, read as a whole-array function over the extended reals. At grid point `t` the body scales
  rows `10000·t … 10000·t + 9999` of the feature array by the matching column entries, and multiplies the
  scaled [10000, 80] block into the whole [80, 40] weight array (a matrix product into a zero accumulator; the
  changes of float format on the way in are the identity here). Entry `(r, n)` of the result is therefore
  `∑ k, (x (r, k) · s (r, 0)) · w (k, n)`; the ten row blocks tile the output.
-/
import proofs.«180224_j17394617548983_2_alg».proof.Proof.Rows
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen

variable (V : (c : Dev nD) → (b : Ref sig .tc) → Buf (Elt Ideal) ((c : Thread nD τ).loc b))

/-- The feature entry `(r, k)` that output entry `(r, n)` meets at contraction index `k`. -/
abbrev lpos (i : S100000x40.Idx) (k : Fin 80) : S100000x80.Idx := fun a => match a with
  | ⟨0, _⟩ => ⟨(i 0).val, (i 0).isLt⟩
  | ⟨1, _⟩ => ⟨k.val, k.isLt⟩
/-- The weight entry `(k, n)` it meets there. -/
abbrev rpos (i : S100000x40.Idx) (k : Fin 80) : S80x40.Idx := fun a => match a with
  | ⟨0, _⟩ => ⟨k.val, k.isLt⟩
  | ⟨1, _⟩ => ⟨(i 1).val, (i 1).isLt⟩

/-- Rows of `x` scaled by the column `s`, then multiplied into the weights `w`. -/
def scaleMatmul (x : FVec Ideal S100000x80 .f32) (s : FVec Ideal S100000x1 .f32) (w : FVec Ideal S80x40 .f32) : FVec Ideal S100000x40 .f32 :=
  fun i => ∑ k : Fin 80, (x (lpos i k) * s (col (lpos i k))) * w (rpos i k)

/-- The same two positions inside a block. -/
abbrev blpos (j : S10000x40.Idx) (k : Fin 80) : S10000x80.Idx := fun a => match a with
  | ⟨0, _⟩ => ⟨(j 0).val, (j 0).isLt⟩
  | ⟨1, _⟩ => ⟨k.val, k.isLt⟩
abbrev brpos (j : S10000x40.Idx) (k : Fin 80) : S80x40.Idx := fun a => match a with
  | ⟨0, _⟩ => ⟨k.val, k.isLt⟩
  | ⟨1, _⟩ => ⟨(j 1).val, (j 1).isLt⟩

/-- The block product's dimension numbers: rows × contraction times contraction × columns. -/
abbrev blockDot : DotDims S10000x80 S80x40 S10000x40 := dot_S10000x80_S80x40_S10000x40_1_0_0_1_n_n

theorem lhs_row (j : S10000x40.Idx) (q : blockDot.contr.Idx) : (blockDot.lhsIdx j q 0).val = (j 0).val := by
  unfold DotDims.lhsIdx
  rw [dif_neg (show ¬(0 : Fin S10000x80.rank) ∈ blockDot.lhsBatch by decide), dif_pos (show (0 : Fin S10000x80.rank) ∈ blockDot.lhsNonContracting by decide)]
  rfl
theorem lhs_contr (j : S10000x40.Idx) (q : blockDot.contr.Idx) : (blockDot.lhsIdx j q 1).val = (q ⟨0, by decide⟩).val :=
  blockDot.lhsIdx_val_of_single rfl j q
theorem rhs_contr (j : S10000x40.Idx) (q : blockDot.contr.Idx) : (blockDot.rhsIdx j q 0).val = (q ⟨0, by decide⟩).val :=
  blockDot.rhsIdx_val_of_single rfl j q
theorem rhs_col (j : S10000x40.Idx) (q : blockDot.contr.Idx) : (blockDot.rhsIdx j q 1).val = (j 1).val := by
  unfold DotDims.rhsIdx
  rw [dif_neg (show ¬(1 : Fin S80x40.rank) ∈ blockDot.rhsBatch by decide), dif_pos (show (1 : Fin S80x40.rank) ∈ blockDot.rhsNonContracting by decide)]
  rfl

/-- The body's arithmetic at one entry of the output block. -/
theorem pay2_apply (x0 : FVec Ideal S10000x80 .f32) (x1 : FVec Ideal S10000x1 .f32) (x2 : FVec Ideal S80x40 .f32) (j : S10000x40.Idx) :
    k2_pay1 x0 x1 x2 j = ∑ k : Fin 80, (x0 (blpos j k) * x1 (bcol (blpos j k))) * x2 (brpos j k) := by
  unfold k2_pay1
  show FloatOps.matmul blockDot none
      (truncf .bf16 (mulf (shapeCast S10000x80 x0 shapeCasts_S10000x80_S10000x80)
        (broadcastTo S10000x80 (shapeCast S10000x1 x1 shapeCasts_S10000x1_S10000x1) broadcasts_S10000x1_S10000x80)) bitsLt_bf16_f32)
      (truncf .bf16 x2 bitsLt_bf16_f32) (constant S10000x40 .f32 0x00000000#32) j = _
  rw [shapeCast_self, shapeCast_self, Ideal.matmul_constant_zero_apply,
    ← Equiv.sum_comp (ValueIdx.contrEquiv1 blockDot 80 rfl rfl).symm]
  refine Finset.sum_congr rfl fun k _ => ?_
  have hk := ValueIdx.contrEquiv1_symm_val blockDot 80 rfl rfl k
  have el : blockDot.lhsIdx j ((ValueIdx.contrEquiv1 blockDot 80 rfl rfl).symm k) = blpos j k := funext fun a => Fin.ext (by
    match a with
    | ⟨0, _⟩ => exact lhs_row _ _
    | ⟨1, _⟩ => exact (lhs_contr _ _).trans hk)
  have er : blockDot.rhsIdx j ((ValueIdx.contrEquiv1 blockDot 80 rfl rfl).symm k) = brpos j k := funext fun a => Fin.ext (by
    match a with
    | ⟨0, _⟩ => exact (rhs_contr _ _).trans hk
    | ⟨1, _⟩ => exact rhs_col _ _)
  rw [el, er]
  show (x0 (blpos j k) * broadcastTo S10000x80 x1 broadcasts_S10000x1_S10000x80 (blpos j k)) * x2 (brpos j k) = _
  rw [bcast_col]

/-- At point `t` the feature, column and output windows sit at block row `t`; the weights are one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the scaled product. -/
theorem flushed2 (c : Dev nD) (t : Fin cfg2.N) :
    (dat2 V c).flushed 3 t = ((cfg2.win 3).blk t).view.read (Elt Ideal) (scaleMatmul (V c main_v40) (V c main_v17) (V c main_arg3)) := by
  show (cfg2.win 3).cut (grid2.coords t) ((dat2 V c).after 3 t) = _
  rw [after2_3]
  unfold out2_3
  rw [View.canon_unit_zero hz]
  simp only [View.ld_unit_zero (S := S10000x80) hz, View.ld_unit_zero (S := S10000x1) hz, View.ld_unit_zero (S := S80x40) hz]
  obtain ⟨e0, e1, e2, e3, e4, e5, e6, e7⟩ := idx_facts2 t
  funext j
  refine (pay2_apply (iblk2 V c 0 t) (iblk2 V c 1 t) (iblk2 V c 2 t) j).trans ?_
  show (∑ k : Fin 80, FloatOps.mulf (F := Ideal) (φ := .f32)
        (FloatOps.mulf (F := Ideal) (φ := .f32) (V c main_v40 (((cfg2.win 0).blk t).view.emb (blpos j k))) (V c main_v17 (((cfg2.win 1).blk t).view.emb (bcol (blpos j k)))))
        (V c main_arg3 (((cfg2.win 2).blk t).view.emb (brpos j k))))
    = ∑ k : Fin 80, FloatOps.mulf (F := Ideal) (φ := .f32)
        (FloatOps.mulf (F := Ideal) (φ := .f32) (V c main_v40 (lpos (((cfg2.win 3).blk t).view.emb j) k)) (V c main_v17 (col (lpos (((cfg2.win 3).blk t).view.emb j) k))))
        (V c main_arg3 (rpos (((cfg2.win 3).blk t).view.emb j) k))
  refine Finset.sum_congr rfl fun k _ => ?_
  have hk : k.val < 80 := k.isLt
  have h0 : ((cfg2.win 0).blk t).view.emb (blpos j k) = lpos (((cfg2.win 3).blk t).view.emb j) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 80 + 1 * k.val = k.val; omega
  have h1 : ((cfg2.win 1).blk t).view.emb (bcol (blpos j k)) = col (lpos (((cfg2.win 3).blk t).view.emb j) k) := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  have h2 : ((cfg2.win 2).blk t).view.emb (brpos j k) = rpos (((cfg2.win 3).blk t).view.emb j) k := by
    funext a; apply Fin.ext
    match a with
    | ⟨0, _⟩ => show win2_2.index t (0 : Fin 2) * 80 + 1 * k.val = k.val; omega
    | ⟨1, _⟩ => show win2_2.index t (1 : Fin 2) * 40 + 1 * (j 1).val = win2_3.index t (1 : Fin 2) * 40 + 1 * (j 1).val; omega
  rw [h0, h1, h2]

/-- An index of the output array lies in point `t`'s block iff each coordinate lies in the block's range. -/
theorem mem_blk2 (t : Fin cfg2.N) (i : S100000x40.Idx) :
    i ∈ ((cfg2.win 3).blk t).view.set ↔ ∀ a : Fin 2, win2_3.index t a * S10000x40.size a ≤ (i a).val ∧ (i a).val < win2_3.index t a * S10000x40.size a + S10000x40.size a := by
  show i ∈ ((View.whole main_v41).slice (win2_3.rect t)).set ↔ _
  rw [View.set_slice_whole, Rect.mem_set_unit]
  exact Iff.rfl

/-- The output array after the ten points. Row `r` is written by point `r / 10000`. -/
theorem final2 (c : Dev nD) : (dat2 V c).arrAt 3 cfg2.N = scaleMatmul (V c main_v40) (V c main_v17) (V c main_arg3) :=
  (dat2 V c).arrAt_eq_of_cover 3 _ (fun t _ => flushed2 V c t) fun i => by
    have hN : cfg2.N = 10 := N_2
    have hi0 : (i 0).val < 100000 := (i 0).isLt
    have hi1 : (i 1).val < 40 := (i 1).isLt
    obtain ⟨t, ht⟩ : ∃ t : Fin cfg2.N, t.val = (i 0).val / 10000 := ⟨⟨(i 0).val / 10000, by rw [hN]; omega⟩, rfl⟩
    obtain ⟨-, -, -, -, -, -, e6, e7⟩ := idx_facts2 t
    refine ⟨t, flush2_3 t, ?_⟩
    rw [mem_blk2]
    intro a
    match a with
    | ⟨0, _⟩ => show win2_3.index t (0 : Fin 2) * 10000 ≤ (i 0).val ∧ (i 0).val < win2_3.index t (0 : Fin 2) * 10000 + 10000; omega
    | ⟨1, _⟩ => show win2_3.index t (1 : Fin 2) * 40 ≤ (i 1).val ∧ (i 1).val < win2_3.index t (1 : Fin 2) * 40 + 40; omega

end Cert.KernelIdeal.Hand

end
-- ==== Proof.Host.lean ====
/-
  The host side of the kernel program as functions of arrays. Between its three kernels the program runs
  plain array operations: it appends one self-edge per node to the sender and receiver lists, counts each
  node's occurrences in a list (a scatter-add of ones), takes `1 / sqrt (max (count, 1))`, lays that out as a
  [100000, 1] column, and — twice — gathers feature rows by sender and scatter-adds them by receiver. Each of
  these is named here as one function, and each host stretch's result buffers are read off as those functions
  of the buffers the stretch starts from (whatever they hold: `Vl`).
-/
import proofs.«180224_j17394617548983_2_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- An edge list with one self-edge `n → n` per node appended. -/
def withSelf (a : (⟨S1000000, .i32⟩ : BufTy).Contents (Elt F)) : (⟨S1100000, .i32⟩ : BufTy).Contents (Elt F) :=
  concatenate S1100000 0 [⟨S1000000, a⟩, ⟨S100000, iotaInDim S100000 32 0⟩] concatenates_S1000000_S100000_S1100000_d0

/-- Per node, `1 / sqrt (max (d, 1))` where `d` counts the node's occurrences in the list `idx`. -/
def invSqrtDeg (idx : (⟨S1100000, .i32⟩ : BufTy).Contents (Elt F)) : (⟨S100000, .f32⟩ : BufTy).Contents (Elt F) :=
  Host.rsqrt (maximumf
    (Host.scatterAdd scatter_S100000_S1100000x1_S1100000_n_0_0_1
      (broadcastInDim S100000 ![] bcast_S_S100000 (constant (F := F) S_ .f32 0x00000000#32))
      (broadcastInDim S1100000x1 ![0] bcast_S1100000_S1100000x1_0 idx)
      (broadcastInDim S1100000 ![] bcast_S_S1100000 (constant (F := F) S_ .f32 0x3F800000#32)))
    (broadcastInDim S100000 ![] bcast_S_S100000 (constant (F := F) S_ .f32 0x3F800000#32)))

/-- A per-node vector laid out as a [100000, 1] column. -/
def asColumn (v : (⟨S100000, .f32⟩ : BufTy).Contents (Elt F)) : (⟨S100000x1, .f32⟩ : BufTy).Contents (Elt F) :=
  shapeCast S100000x1 v shapeCasts_S100000_S100000x1

/-- Neighbourhood sum: row `s e` of `x` (a negative `s e` counted from the end) added into row `r e`, over all edges `e`. -/
def aggregate (x : (⟨S100000x80, .f32⟩ : BufTy).Contents (Elt F)) (s r : (⟨S1100000, .i32⟩ : BufTy).Contents (Elt F)) : (⟨S100000x80, .f32⟩ : BufTy).Contents (Elt F) :=
  Host.scatterAdd scatter_S100000x80_S1100000x1_S1100000x80_1_0_0_1
    (broadcastInDim S100000x80 ![] bcast_S_S100000x80 (constant (F := F) S_ .f32 0x00000000#32))
    (broadcastInDim S1100000x1 ![0] bcast_S1100000_S1100000x1_0 r)
    (Host.gather gather_S100000x80_S1100000x1_S1100000x80_1_0_n_n_0_1_180 x
      (broadcastInDim S1100000x1 ![0] bcast_S1100000_S1100000x1_0
        (select (cmpi .slt s (broadcastInDim S1100000 ![] bcast_S_S1100000 (constantI S_ 32 0#32)))
          (addi s (broadcastInDim S1100000 ![] bcast_S_S1100000 (constantI S_ 32 100000#32))) s)))

variable (Vl : Valuation τ sig (Elt F))

/-! ## The first stretch: edge lists, degrees, the three columns -/

theorem host0_arg0 : after hostOps0 Vl (Proc.devRef .tc main_arg0) = Vl (Proc.devRef .tc main_arg0) := by
  dsimp only [hostOps0]; after_results
theorem host0_arg3 : after hostOps0 Vl (Proc.devRef .tc main_arg3) = Vl (Proc.devRef .tc main_arg3) := by
  dsimp only [hostOps0]; after_results
theorem host0_v1 : after hostOps0 Vl (Proc.devRef .tc main_v1) = withSelf (Vl (Proc.devRef .tc main_arg1)) := by
  dsimp only [hostOps0]; after_results; rfl
theorem host0_v2 : after hostOps0 Vl (Proc.devRef .tc main_v2) = withSelf (Vl (Proc.devRef .tc main_arg2)) := by
  dsimp only [hostOps0]; after_results; rfl
set_option maxHeartbeats 4000000 in
theorem host0_v13 : after hostOps0 Vl (Proc.devRef .tc main_v13) = asColumn (invSqrtDeg (withSelf (Vl (Proc.devRef .tc main_arg1)))) := by
  dsimp only [hostOps0]; after_results; rfl
set_option maxHeartbeats 4000000 in
theorem host0_v17 : after hostOps0 Vl (Proc.devRef .tc main_v17) = asColumn (invSqrtDeg (withSelf (Vl (Proc.devRef .tc main_arg2)))) := by
  dsimp only [hostOps0]; after_results; rfl
set_option maxHeartbeats 4000000 in
theorem host0_v18 : after hostOps0 Vl (Proc.devRef .tc main_v18)
    = mulf (asColumn (invSqrtDeg (withSelf (Vl (Proc.devRef .tc main_arg2))))) (asColumn (invSqrtDeg (withSelf (Vl (Proc.devRef .tc main_arg1))))) := by
  dsimp only [hostOps0]; after_results; rfl

/-! ## The second stretch: one neighbourhood sum -/

theorem host1_v29 : after hostOps1 Vl (Proc.devRef .tc main_v29)
    = aggregate (Vl (Proc.devRef .tc main_v19)) (Vl (Proc.devRef .tc main_v1)) (Vl (Proc.devRef .tc main_v2)) := by
  dsimp only [hostOps1]; after_results; rfl
theorem host1_v1 : after hostOps1 Vl (Proc.devRef .tc main_v1) = Vl (Proc.devRef .tc main_v1) := by
  dsimp only [hostOps1]; after_results
theorem host1_v2 : after hostOps1 Vl (Proc.devRef .tc main_v2) = Vl (Proc.devRef .tc main_v2) := by
  dsimp only [hostOps1]; after_results
theorem host1_v17 : after hostOps1 Vl (Proc.devRef .tc main_v17) = Vl (Proc.devRef .tc main_v17) := by
  dsimp only [hostOps1]; after_results
theorem host1_v18 : after hostOps1 Vl (Proc.devRef .tc main_v18) = Vl (Proc.devRef .tc main_v18) := by
  dsimp only [hostOps1]; after_results
theorem host1_arg3 : after hostOps1 Vl (Proc.devRef .tc main_arg3) = Vl (Proc.devRef .tc main_arg3) := by
  dsimp only [hostOps1]; after_results

/-! ## The third stretch: the other neighbourhood sum -/

theorem host2_v40 : after hostOps2 Vl (Proc.devRef .tc main_v40)
    = aggregate (Vl (Proc.devRef .tc main_v30)) (Vl (Proc.devRef .tc main_v1)) (Vl (Proc.devRef .tc main_v2)) := by
  dsimp only [hostOps2]; after_results; rfl
theorem host2_v17 : after hostOps2 Vl (Proc.devRef .tc main_v17) = Vl (Proc.devRef .tc main_v17) := by
  dsimp only [hostOps2]; after_results
theorem host2_arg3 : after hostOps2 Vl (Proc.devRef .tc main_arg3) = Vl (Proc.devRef .tc main_arg3) := by
  dsimp only [hostOps2]; after_results

end Cert.KernelIdeal.Hand

end
-- ==== Proof.Fold.lean ====
/-
  The kernel program's result as one function of its four argument arrays, over the extended reals. The fold
  through the program — host stretch, kernel, host stretch, kernel, host stretch, kernel — is walked buffer by
  buffer: after the first stretch the edge lists with self-edges and the three degree columns; after the first
  kernel the features scaled by the sender column; after the second stretch their neighbourhood sum; after the
  second kernel that sum scaled by the product of the receiver and sender columns; after the third stretch the
  second neighbourhood sum; after the last kernel its rows scaled by the receiver column and multiplied into
  the weights. A buffer that a stretch or a kernel does not write keeps what it held.
-/
import proofs.«180224_j17394617548983_2_alg».proof.Proof.Region0
import proofs.«180224_j17394617548983_2_alg».proof.Proof.Region1
import proofs.«180224_j17394617548983_2_alg».proof.Proof.Region2
import proofs.«180224_j17394617548983_2_alg».proof.Proof.Host

noncomputable section

open Idealize.ShloMosaic Idealize.ShloMosaic.TcCoe Idealize.SL.Sem Idealize.ShloMosaic.StableHlo

namespace Cert.KernelIdeal.Hand

open Cert.KernelIdeal Cert.KernelIdeal.Gen

/-- The sender-side column: `1 / sqrt (max (out-degree, 1))` per node, self-edges counted. -/
def colS (a1 : (⟨S1000000, .i32⟩ : BufTy).Contents (Elt Ideal)) : (⟨S100000x1, .f32⟩ : BufTy).Contents (Elt Ideal) :=
  asColumn (invSqrtDeg (withSelf a1))
/-- The receiver-side column. -/
def colR (a2 : (⟨S1000000, .i32⟩ : BufTy).Contents (Elt Ideal)) : (⟨S100000x1, .f32⟩ : BufTy).Contents (Elt Ideal) :=
  asColumn (invSqrtDeg (withSelf a2))

/-- The product of the receiver and the sender column, entry by entry. -/
def colRS (a1 a2 : (⟨S1000000, .i32⟩ : BufTy).Contents (Elt Ideal)) : (⟨S100000x1, .f32⟩ : BufTy).Contents (Elt Ideal) :=
  (mulf (colR a2 : FVec Ideal S100000x1 .f32) (colS a1) : FVec Ideal S100000x1 .f32)

/-- The features scaled by the sender column. -/
def feat1 (a0 : (⟨S100000x80, .f32⟩ : BufTy).Contents (Elt Ideal)) (a1 : (⟨S1000000, .i32⟩ : BufTy).Contents (Elt Ideal)) :
    (⟨S100000x80, .f32⟩ : BufTy).Contents (Elt Ideal) :=
  scaleRows a0 (colS a1)
/-- Their neighbourhood sum. -/
def feat2 (a0 : (⟨S100000x80, .f32⟩ : BufTy).Contents (Elt Ideal)) (a1 a2 : (⟨S1000000, .i32⟩ : BufTy).Contents (Elt Ideal)) :
    (⟨S100000x80, .f32⟩ : BufTy).Contents (Elt Ideal) :=
  aggregate (feat1 a0 a1) (withSelf a1) (withSelf a2)
/-- That sum scaled by the product of the receiver and the sender column. -/
def feat3 (a0 : (⟨S100000x80, .f32⟩ : BufTy).Contents (Elt Ideal)) (a1 a2 : (⟨S1000000, .i32⟩ : BufTy).Contents (Elt Ideal)) :
    (⟨S100000x80, .f32⟩ : BufTy).Contents (Elt Ideal) :=
  scaleRows (feat2 a0 a1 a2) (colRS a1 a2)
/-- The second neighbourhood sum. -/
def feat4 (a0 : (⟨S100000x80, .f32⟩ : BufTy).Contents (Elt Ideal)) (a1 a2 : (⟨S1000000, .i32⟩ : BufTy).Contents (Elt Ideal)) :
    (⟨S100000x80, .f32⟩ : BufTy).Contents (Elt Ideal) :=
  aggregate (feat3 a0 a1 a2) (withSelf a1) (withSelf a2)
/-- The program's result: the second sum scaled by the receiver column and multiplied into the weights. -/
def result (a0 : (⟨S100000x80, .f32⟩ : BufTy).Contents (Elt Ideal)) (a1 a2 : (⟨S1000000, .i32⟩ : BufTy).Contents (Elt Ideal))
    (a3 : (⟨S80x40, .f32⟩ : BufTy).Contents (Elt Ideal)) : (⟨S100000x40, .f32⟩ : BufTy).Contents (Elt Ideal) :=
  scaleMatmul (feat4 a0 a1 a2) (colR a2) a3

variable (m : (ℓ : Loc nD τ sig) → Buf (Elt Ideal) ℓ) (ρ : Dev nD → PrngReg)

/-! ## After the first host stretch -/

theorem W1_arg0 (c : Dev nD) : W1 m ρ c (Proc.devRef .tc main_arg0) = (m ((c : Thread nD τ).loc main_arg0)) := by
  show after hostOps0 (W0 m ρ c) (Proc.devRef .tc main_arg0) = _
  rw [host0_arg0]
theorem W1_arg3 (c : Dev nD) : W1 m ρ c (Proc.devRef .tc main_arg3) = (m ((c : Thread nD τ).loc main_arg3)) := by
  show after hostOps0 (W0 m ρ c) (Proc.devRef .tc main_arg3) = _
  rw [host0_arg3]
theorem W1_v1 (c : Dev nD) : W1 m ρ c (Proc.devRef .tc main_v1) = withSelf (m ((c : Thread nD τ).loc main_arg1)) := by
  show after hostOps0 (W0 m ρ c) (Proc.devRef .tc main_v1) = _
  rw [host0_v1]
theorem W1_v2 (c : Dev nD) : W1 m ρ c (Proc.devRef .tc main_v2) = withSelf (m ((c : Thread nD τ).loc main_arg2)) := by
  show after hostOps0 (W0 m ρ c) (Proc.devRef .tc main_v2) = _
  rw [host0_v2]
theorem W1_v13 (c : Dev nD) : W1 m ρ c (Proc.devRef .tc main_v13) = colS (m ((c : Thread nD τ).loc main_arg1)) := by
  show after hostOps0 (W0 m ρ c) (Proc.devRef .tc main_v13) = _
  rw [host0_v13]; rfl
theorem W1_v17 (c : Dev nD) : W1 m ρ c (Proc.devRef .tc main_v17) = colR (m ((c : Thread nD τ).loc main_arg2)) := by
  show after hostOps0 (W0 m ρ c) (Proc.devRef .tc main_v17) = _
  rw [host0_v17]; rfl
theorem W1_v18 (c : Dev nD) : W1 m ρ c (Proc.devRef .tc main_v18) = colRS (m ((c : Thread nD τ).loc main_arg1)) (m ((c : Thread nD τ).loc main_arg2)) := by
  show after hostOps0 (W0 m ρ c) (Proc.devRef .tc main_v18) = _
  rw [host0_v18]; rfl

/-! ## After the first kernel -/

theorem W2_v19 (c : Dev nD) : W2 m ρ c (Proc.devRef .tc main_v19) = feat1 (m ((c : Thread nD τ).loc main_arg0)) (m ((c : Thread nD τ).loc main_arg1)) :=
  (W2_arr m ρ c 2).trans ((final0 (V1 m ρ) c).trans (by
    show scaleRows (W1 m ρ c (Proc.devRef .tc main_arg0)) (W1 m ρ c (Proc.devRef .tc main_v13)) = _
    rw [W1_arg0 m ρ c, W1_v13 m ρ c]; rfl))
theorem W2_v1 (c : Dev nD) : W2 m ρ c (Proc.devRef .tc main_v1) = withSelf (m ((c : Thread nD τ).loc main_arg1)) :=
  (W2_of_ne m ρ c main_v1 (by decide)).trans (W1_v1 m ρ c)
theorem W2_v2 (c : Dev nD) : W2 m ρ c (Proc.devRef .tc main_v2) = withSelf (m ((c : Thread nD τ).loc main_arg2)) :=
  (W2_of_ne m ρ c main_v2 (by decide)).trans (W1_v2 m ρ c)
theorem W2_v17 (c : Dev nD) : W2 m ρ c (Proc.devRef .tc main_v17) = colR (m ((c : Thread nD τ).loc main_arg2)) :=
  (W2_of_ne m ρ c main_v17 (by decide)).trans (W1_v17 m ρ c)
theorem W2_v18 (c : Dev nD) : W2 m ρ c (Proc.devRef .tc main_v18) = colRS (m ((c : Thread nD τ).loc main_arg1)) (m ((c : Thread nD τ).loc main_arg2)) :=
  (W2_of_ne m ρ c main_v18 (by decide)).trans (W1_v18 m ρ c)
theorem W2_arg3 (c : Dev nD) : W2 m ρ c (Proc.devRef .tc main_arg3) = (m ((c : Thread nD τ).loc main_arg3)) :=
  (W2_of_ne m ρ c main_arg3 (by decide)).trans (W1_arg3 m ρ c)

/-! ## After the second host stretch -/

theorem W3_v29 (c : Dev nD) : W3 m ρ c (Proc.devRef .tc main_v29) = feat2 (m ((c : Thread nD τ).loc main_arg0)) (m ((c : Thread nD τ).loc main_arg1)) (m ((c : Thread nD τ).loc main_arg2)) := by
  show after hostOps1 (W2 m ρ c) (Proc.devRef .tc main_v29) = _
  rw [host1_v29, W2_v19 m ρ c, W2_v1 m ρ c, W2_v2 m ρ c]; rfl
theorem W3_v1 (c : Dev nD) : W3 m ρ c (Proc.devRef .tc main_v1) = withSelf (m ((c : Thread nD τ).loc main_arg1)) := by
  show after hostOps1 (W2 m ρ c) (Proc.devRef .tc main_v1) = _
  rw [host1_v1]; exact W2_v1 m ρ c
theorem W3_v2 (c : Dev nD) : W3 m ρ c (Proc.devRef .tc main_v2) = withSelf (m ((c : Thread nD τ).loc main_arg2)) := by
  show after hostOps1 (W2 m ρ c) (Proc.devRef .tc main_v2) = _
  rw [host1_v2]; exact W2_v2 m ρ c
theorem W3_v17 (c : Dev nD) : W3 m ρ c (Proc.devRef .tc main_v17) = colR (m ((c : Thread nD τ).loc main_arg2)) := by
  show after hostOps1 (W2 m ρ c) (Proc.devRef .tc main_v17) = _
  rw [host1_v17]; exact W2_v17 m ρ c
theorem W3_v18 (c : Dev nD) : W3 m ρ c (Proc.devRef .tc main_v18) = colRS (m ((c : Thread nD τ).loc main_arg1)) (m ((c : Thread nD τ).loc main_arg2)) := by
  show after hostOps1 (W2 m ρ c) (Proc.devRef .tc main_v18) = _
  rw [host1_v18]; exact W2_v18 m ρ c
theorem W3_arg3 (c : Dev nD) : W3 m ρ c (Proc.devRef .tc main_arg3) = (m ((c : Thread nD τ).loc main_arg3)) := by
  show after hostOps1 (W2 m ρ c) (Proc.devRef .tc main_arg3) = _
  rw [host1_arg3]; exact W2_arg3 m ρ c

/-! ## After the second kernel -/

theorem W4_v30 (c : Dev nD) : W4 m ρ c (Proc.devRef .tc main_v30) = feat3 (m ((c : Thread nD τ).loc main_arg0)) (m ((c : Thread nD τ).loc main_arg1)) (m ((c : Thread nD τ).loc main_arg2)) :=
  (W4_arr m ρ c 2).trans ((final1 (V3 m ρ) c).trans (by
    show scaleRows (W3 m ρ c (Proc.devRef .tc main_v29)) (W3 m ρ c (Proc.devRef .tc main_v18)) = _
    rw [W3_v29 m ρ c, W3_v18 m ρ c]; rfl))
theorem W4_v1 (c : Dev nD) : W4 m ρ c (Proc.devRef .tc main_v1) = withSelf (m ((c : Thread nD τ).loc main_arg1)) :=
  (W4_of_ne m ρ c main_v1 (by decide)).trans (W3_v1 m ρ c)
theorem W4_v2 (c : Dev nD) : W4 m ρ c (Proc.devRef .tc main_v2) = withSelf (m ((c : Thread nD τ).loc main_arg2)) :=
  (W4_of_ne m ρ c main_v2 (by decide)).trans (W3_v2 m ρ c)
theorem W4_v17 (c : Dev nD) : W4 m ρ c (Proc.devRef .tc main_v17) = colR (m ((c : Thread nD τ).loc main_arg2)) :=
  (W4_of_ne m ρ c main_v17 (by decide)).trans (W3_v17 m ρ c)
theorem W4_arg3 (c : Dev nD) : W4 m ρ c (Proc.devRef .tc main_arg3) = (m ((c : Thread nD τ).loc main_arg3)) :=
  (W4_of_ne m ρ c main_arg3 (by decide)).trans (W3_arg3 m ρ c)

/-! ## After the third host stretch -/

theorem W5_v40 (c : Dev nD) : W5 m ρ c (Proc.devRef .tc main_v40) = feat4 (m ((c : Thread nD τ).loc main_arg0)) (m ((c : Thread nD τ).loc main_arg1)) (m ((c : Thread nD τ).loc main_arg2)) := by
  show after hostOps2 (W4 m ρ c) (Proc.devRef .tc main_v40) = _
  rw [host2_v40, W4_v30 m ρ c, W4_v1 m ρ c, W4_v2 m ρ c]; rfl
theorem W5_v17 (c : Dev nD) : W5 m ρ c (Proc.devRef .tc main_v17) = colR (m ((c : Thread nD τ).loc main_arg2)) := by
  show after hostOps2 (W4 m ρ c) (Proc.devRef .tc main_v17) = _
  rw [host2_v17]; exact W4_v17 m ρ c
theorem W5_arg3 (c : Dev nD) : W5 m ρ c (Proc.devRef .tc main_arg3) = (m ((c : Thread nD τ).loc main_arg3)) := by
  show after hostOps2 (W4 m ρ c) (Proc.devRef .tc main_arg3) = _
  rw [host2_arg3]; exact W4_arg3 m ρ c

/-! ## After the last kernel -/

/-- The result buffer at the end of the fold is `result` of the launch contents of the four arguments. -/
theorem W6_result (c : Dev nD) : W6 m ρ c (Proc.devRef .tc main_v41) = result (m ((c : Thread nD τ).loc main_arg0)) (m ((c : Thread nD τ).loc main_arg1)) (m ((c : Thread nD τ).loc main_arg2)) (m ((c : Thread nD τ).loc main_arg3)) :=
  (W6_arr m ρ c 3).trans ((final2 (V5 m ρ) c).trans (by
    show scaleMatmul (W5 m ρ c (Proc.devRef .tc main_v40)) (W5 m ρ c (Proc.devRef .tc main_v17)) (W5 m ρ c (Proc.devRef .tc main_arg3)) = _
    rw [W5_v40 m ρ c, W5_v17 m ρ c, W5_arg3 m ρ c]; rfl))

end Cert.KernelIdeal.Hand

end
-- ==== Proof.Bridge.lean ====
/-
  The reference computes the same function. Over the extended reals the reference is two rounds of
  "scale rows by the sender column, sum over neighbourhoods, scale rows by the receiver column", then a matrix
  product with the weights. The kernel program differs in three places, and each is an identity of extended-real
  arithmetic, index by index:
  * it lays a per-node vector out as a [100000, 1] column by a reshape where the reference broadcasts twice —
    both read entry `r` of the vector at row `r`;
  * between the two rounds it multiplies once by the product of the receiver and sender columns where the
    reference multiplies by one and then the other — associativity of the product, which holds at the
    infinities too;
  * it scales the rows of the last sum inside the kernel that forms the matrix product — the same sum of
    products, term by term.
  The neighbourhood sums and the degree counts are the same operations on both sides and are never opened.
-/
import proofs.«180224_j17394617548983_2_alg».proof.Proof.Fold
import proofs.«180224_j17394617548983_2_alg».proof.Proof.Gen.ReferenceIdeal.Read

noncomputable section

open Idealize.ShloMosaic Idealize.ShloMosaic.TcCoe Idealize.SL.Sem
open scoped BigOperators

namespace Cert.Bridge

open Cert.KernelIdeal Cert.KernelIdeal.Hand Cert.ReferenceIdeal.Read

/-- The node of row `i 0`. -/
abbrev row (i : S100000x80.Idx) : S100000.Idx := fun a => match a with
  | ⟨0, _⟩ => ⟨(i 0).val, (i 0).isLt⟩

/-- A per-node vector laid out as a column reads, at `(r, 0)`, the vector's entry `r`. -/
theorem asColumn_col (v : FVec Ideal S100000 .f32) (i : S100000x80.Idx) : asColumn (F := Ideal) v (col i) = v (row i) := by
  unfold asColumn
  exact shapeCast_apply v _ (col i) (row i) (by
    rw [Shape.rowMajor_val_one, Shape.rowMajor_val_two]; show (i 0).val = (i 0).val * 1 + 0; omega)

/-- A per-node vector broadcast to a column and then along the features reads, at `(r, f)`, the vector's entry `r`. -/
theorem bcast2_apply (h1 : S100000.BroadcastsInDim S100000x1 (![0] : Fin 1 → Fin S100000x1.rank))
    (h2 : S100000x1.BroadcastsInDim S100000x80 (![0, 1] : Fin 2 → Fin S100000x80.rank))
    (v : FVec Ideal S100000 .f32) (i : S100000x80.Idx) :
    broadcastInDim S100000x80 ![0, 1] h2 (broadcastInDim S100000x1 ![0] h1 v) i = v (row i) := by
  rw [broadcastInDim_apply ![0, 1] h2 _ i (col i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply ![0] h1 v (col i) (row i) (fun a => match a with
      | ⟨0, _⟩ => by show (i 0).val = if (100000 : Nat) = 1 then 0 else (i 0).val; rw [if_neg (by decide)])]

/-- Multiplying by the twice-broadcast vector is scaling the rows by the vector's column. -/
theorem mul_bcast2 (h1 : S100000.BroadcastsInDim S100000x1 (![0] : Fin 1 → Fin S100000x1.rank))
    (h2 : S100000x1.BroadcastsInDim S100000x80 (![0, 1] : Fin 2 → Fin S100000x80.rank))
    (x : FVec Ideal S100000x80 .f32) (v : FVec Ideal S100000 .f32) :
    mulf x (broadcastInDim S100000x80 ![0, 1] h2 (broadcastInDim S100000x1 ![0] h1 v)) = scaleRows (F := Ideal) x (asColumn v) := by
  funext i
  show x i * broadcastInDim S100000x80 ![0, 1] h2 (broadcastInDim S100000x1 ![0] h1 v) i = x i * asColumn (F := Ideal) v (col i)
  rw [bcast2_apply, asColumn_col]

/-- Multiplying by one twice-broadcast vector and then by another is scaling the rows by the product of their
    columns: the extended reals' product is associative. -/
theorem mul_mul_bcast2 (h1 : S100000.BroadcastsInDim S100000x1 (![0] : Fin 1 → Fin S100000x1.rank))
    (h2 : S100000x1.BroadcastsInDim S100000x80 (![0, 1] : Fin 2 → Fin S100000x80.rank))
    (y : FVec Ideal S100000x80 .f32) (u v : FVec Ideal S100000 .f32) :
    mulf (mulf y (broadcastInDim S100000x80 ![0, 1] h2 (broadcastInDim S100000x1 ![0] h1 u)))
        (broadcastInDim S100000x80 ![0, 1] h2 (broadcastInDim S100000x1 ![0] h1 v))
      = scaleRows (F := Ideal) y (mulf (asColumn (F := Ideal) u : FVec Ideal S100000x1 .f32) (asColumn (F := Ideal) v : FVec Ideal S100000x1 .f32) : FVec Ideal S100000x1 .f32) := by
  funext i
  show (y i * broadcastInDim S100000x80 ![0, 1] h2 (broadcastInDim S100000x1 ![0] h1 u) i)
      * broadcastInDim S100000x80 ![0, 1] h2 (broadcastInDim S100000x1 ![0] h1 v) i
    = y i * (asColumn (F := Ideal) u (col i) * asColumn (F := Ideal) v (col i))
  rw [bcast2_apply, bcast2_apply, asColumn_col, asColumn_col]
  exact mul_assoc _ _ _

/-! ## The reference's stages are the kernel program's -/

theorem ref_degS (a1 : (⟨S1000000, .i32⟩ : BufTy).Contents (Elt Ideal)) : val_main_v12 (F := Ideal) a1 = invSqrtDeg (withSelf a1) := rfl
theorem ref_degR (a2 : (⟨S1000000, .i32⟩ : BufTy).Contents (Elt Ideal)) : val_main_v28 (F := Ideal) a2 = invSqrtDeg (withSelf a2) := rfl
theorem ref_degS' (a1 : (⟨S1000000, .i32⟩ : BufTy).Contents (Elt Ideal)) : val_main_v44 (F := Ideal) a1 = invSqrtDeg (withSelf a1) := rfl
theorem ref_degR' (a2 : (⟨S1000000, .i32⟩ : BufTy).Contents (Elt Ideal)) : val_main_v60 (F := Ideal) a2 = invSqrtDeg (withSelf a2) := rfl

/-- Round one, scaled by the sender column. -/
theorem ref_feat1 (a0 : (⟨S100000x80, .f32⟩ : BufTy).Contents (Elt Ideal)) (a1 : (⟨S1000000, .i32⟩ : BufTy).Contents (Elt Ideal)) :
    val_main_v15 (F := Ideal) a0 a1 = feat1 a0 a1 := by
  unfold val_main_v15 val_main_v14 val_main_v13
  rw [mul_bcast2, ref_degS]
  rfl

/-- Round one's neighbourhood sum. -/
theorem ref_feat2 (a0 : (⟨S100000x80, .f32⟩ : BufTy).Contents (Elt Ideal)) (a1 a2 : (⟨S1000000, .i32⟩ : BufTy).Contents (Elt Ideal)) :
    val_main_v25 (F := Ideal) a0 a1 a2 = feat2 a0 a1 a2 := by
  unfold val_main_v25 val_main_v22
  rw [ref_feat1]
  rfl

/-- Scaled by the receiver column, then by the sender column again. -/
theorem ref_feat3 (a0 : (⟨S100000x80, .f32⟩ : BufTy).Contents (Elt Ideal)) (a1 a2 : (⟨S1000000, .i32⟩ : BufTy).Contents (Elt Ideal)) :
    val_main_v47 (F := Ideal) a0 a1 a2 = feat3 a0 a1 a2 := by
  unfold val_main_v47 val_main_v31 val_main_v30 val_main_v29 val_main_v46 val_main_v45
  rw [mul_mul_bcast2, ref_feat2, ref_degR, ref_degS']
  rfl

/-- Round two's neighbourhood sum. -/
theorem ref_feat4 (a0 : (⟨S100000x80, .f32⟩ : BufTy).Contents (Elt Ideal)) (a1 a2 : (⟨S1000000, .i32⟩ : BufTy).Contents (Elt Ideal)) :
    val_main_v57 (F := Ideal) a0 a1 a2 = feat4 a0 a1 a2 := by
  unfold val_main_v57 val_main_v54
  rw [ref_feat3]
  rfl

/-- The operand positions of the reference's matrix product are the kernel's. -/
theorem lidx_eq (i : S100000x40.Idx) (k : Fin 80) : lidx_main_v64 i k = lpos i k :=
  funext fun a => by match a with | ⟨0, _⟩ => rfl | ⟨1, _⟩ => rfl
theorem ridx_eq (i : S100000x40.Idx) (k : Fin 80) : ridx_main_v64 i k = rpos i k :=
  funext fun a => by match a with | ⟨0, _⟩ => rfl | ⟨1, _⟩ => rfl

/-- The two broadcasts' index maps compose to the row's node. -/
theorem idx_row (j : S100000x80.Idx) : idx_main_v61 (idx_main_v62 j) = row j :=
  funext fun a => by match a with | ⟨0, _⟩ => rfl

/-- THE BRIDGE: the reference's result is the kernel program's, as functions of the four argument arrays. -/
theorem ref_result (a0 : (⟨S100000x80, .f32⟩ : BufTy).Contents (Elt Ideal)) (a1 a2 : (⟨S1000000, .i32⟩ : BufTy).Contents (Elt Ideal))
    (a3 : (⟨S80x40, .f32⟩ : BufTy).Contents (Elt Ideal)) :
    val_main_v64 (F := Ideal) a0 a1 a2 a3 = result a0 a1 a2 a3 := by
  funext i
  rw [val_main_v64_apply]
  show _ = ∑ k : Fin 80, (feat4 a0 a1 a2 (lpos i k) * asColumn (F := Ideal) (invSqrtDeg (withSelf a2)) (col (lpos i k))) * a3 (rpos i k)
  refine Finset.sum_congr rfl fun k _ => ?_
  rw [lidx_eq, ridx_eq, val_main_v63_apply, val_main_v62_apply, val_main_v61_apply, ref_feat4, ref_degR', idx_row, asColumn_col]
  rfl

end Cert.Bridge

end
-- ==== Proof.lean ====
/-
  Two rounds of symmetric-normalized neighbourhood aggregation on a graph of 100000 nodes, followed by a
  [80, 40] linear map: the kernel program against its plain reference, over the extended reals.

  With `S` and `R` the per-node columns `1 / sqrt (max (degree, 1))` of the sender and the receiver lists
  (a self-edge added per node), and `A x` the neighbourhood sum (row `s e` of `x` added into row `r e` over all
  edges `e`), the reference is `((A ((A (x · S)) · R · S)) · R) W`; the kernel program computes `x · S` in a first
  kernel, `(A …) · (R · S)` in a second with the product `R · S` formed once on the host, and `((A …) · R) W` in a
  third that scales the rows and forms the matrix product block by block. Index by index both are the same
  extended-real expression up to the association of one product; no finiteness of the inputs is used.

  The three runs: the kernel program at the machine words and at the extended reals run to the end with the
  arguments unchanged (their generated frame runs); the reference runs to its composed term (its generated
  run). The value of the kernel program's result buffer is read through its three kernels and the host
  operations between them in `Proof/Fold.lean`, and identified with the reference's term in `Proof/Bridge.lean`.
-/
import proofs.«180224_j17394617548983_2_alg».proof.Defs
import proofs.«180224_j17394617548983_2_alg».proof.Proof.Gen.Kernel
import proofs.«180224_j17394617548983_2_alg».proof.Proof.Gen.Kernel.Skeleton
import proofs.«180224_j17394617548983_2_alg».proof.Proof.Gen.Kernel.Launch
import proofs.«180224_j17394617548983_2_alg».proof.Proof.Gen.Kernel.Points
import proofs.«180224_j17394617548983_2_alg».proof.Proof.Gen.Kernel.Frame
import proofs.«180224_j17394617548983_2_alg».proof.Proof.Gen.KernelIdeal
import proofs.«180224_j17394617548983_2_alg».proof.Proof.Gen.KernelIdeal.Skeleton
import proofs.«180224_j17394617548983_2_alg».proof.Proof.Gen.KernelIdeal.Launch
import proofs.«180224_j17394617548983_2_alg».proof.Proof.Gen.KernelIdeal.Points
import proofs.«180224_j17394617548983_2_alg».proof.Proof.Gen.KernelIdeal.Frame
import proofs.«180224_j17394617548983_2_alg».proof.Proof.Gen.ReferenceIdeal
import proofs.«180224_j17394617548983_2_alg».proof.Proof.Gen.Pre_finite_inputs
import proofs.«180224_j17394617548983_2_alg».proof.Proof.Gen.ReferenceIdeal.Run
import proofs.«180224_j17394617548983_2_alg».proof.Proof.Gen.ReferenceIdeal.Read
import proofs.«180224_j17394617548983_2_alg».proof.Proof.KernelRun
import proofs.«180224_j17394617548983_2_alg».proof.Proof.Fold
import proofs.«180224_j17394617548983_2_alg».proof.Proof.Bridge
import Idealize.ShloMosaic.Adequacy
import Idealize.ShloMosaic.Init

noncomputable section

namespace Cert.Proof

open Idealize.ShloMosaic Idealize.SL.Sem

/-- The kernel program at the machine words runs to the end, nothing faulting, its arguments unchanged. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs to the end with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel program at the extended reals rewrote no operation. -/
theorem preserves : Cert.preserves_Kernel_KernelIdeal := trivial

/-- From memories that agree on the four arguments both programs end with the same result array: the kernel
    program's result buffer holds `result` of the arguments (the fold through its three kernels), and the
    reference's composed term is that same function of them (the bridge). -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.W6_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2]
    exact Cert.Bridge.ref_result _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
